-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x1024x1024 : Shape := ⟨4, ![32, 1, 1024, 1024]⟩
abbrev S_ : Shape := ⟨0, ![]⟩

class Facts : Prop where
  bcast_S_S32x1x1024x1024 : S_.BroadcastsInDim S32x1x1024x1024 (![] : Fin 0 → Fin S32x1x1024x1024.rank)
  reducesTo_S32x1x1024x1024_S_d0_1_2_3 : S32x1x1024x1024.ReducesTo [0, 1, 2, 3] S_
  h_S_ : 0 < S_.numel

variable [Facts]

def fn {F : FTy → Type} [FloatOps F] (main_arg0 : FVec F S32x1x1024x1024 .f32) : IVec S_ 1 :=
  let main_v0 : FVec F S32x1x1024x1024 .f32 := Host.absf main_arg0
  let main_cst : FVec F S_ .f32 := constant S_ .f32 0x7F800000#32
  let main_v1 : FVec F S32x1x1024x1024 .f32 := broadcastInDim S32x1x1024x1024 ![] bcast_S_S32x1x1024x1024 main_cst
  let main_v2 : IVec S32x1x1024x1024 1 := cmpf .olt main_v0 main_v1
  let main_c : IVec S_ 1 := constantI S_ 1 1#1
  let main_v3 : IVec S_ 1 := (fun x v => Host.reduce IntOp.andi x v reducesTo_S32x1x1024x1024_S_d0_1_2_3 h_S_) main_v2 main_c
  main_v3
-- ==== Kernel.lean ====
abbrev S32x1x1024x1024 : Shape := ⟨4, ![32, 1, 1024, 1024]⟩
abbrev S32x1024x1024 : Shape := ⟨3, ![32, 1024, 1024]⟩
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 8
  | .vmem => 6
  | .smem => 0
  | _ => 0

abbrev bufTy : (tb : Table) → Fin (tcTables nBuf tb) → BufTy
  | .hbm, ⟨0, _⟩ => ⟨S32x1x1024x1024, .f32⟩
  | .hbm, ⟨1, _⟩ => ⟨S32x1024x1024, .f32⟩
  | .hbm, ⟨2, _⟩ => ⟨S32x1024x1024, .i32⟩
  | .hbm, ⟨3, _⟩ => ⟨S32x1024x1024, .f32⟩
  | .hbm, ⟨4, _⟩ => ⟨S_, .i32⟩
  | .hbm, ⟨5, _⟩ => ⟨S32x1024x1024, .i32⟩
  | .hbm, ⟨6, _⟩ => ⟨S32x1024x1024, .i1⟩
  | .hbm, ⟨7, _⟩ => ⟨S32x1024x1024, .i1⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .i32⟩
  | .local _ .vmem, ⟨3, _⟩ => ⟨S1x1024x1024, .i32⟩
  | .local _ .vmem, ⟨4, _⟩ => ⟨S1x1024x1024, .f32⟩
  | .local _ .vmem, ⟨5, _⟩ => ⟨S1x1024x1024, .f32⟩
  | _, _ => ⟨S32x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x1x1024x1024_S32x1024x1024 : S32x1x1024x1024.ShapeCasts S32x1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  rotates_S1024x1024_d1 : S1024x1024.Rotates 1 none
  iota_S1024x1024_d1_w32 : S1024x1024.Iotas .tc 32 [1]
  rotates_S1024x1024_d0 : S1024x1024.Rotates 0 none
  iota_S1024x1024_d0_w32 : S1024x1024.Iotas .tc 32 [0]
  shapeCasts_S1024x1024_S1x1024x1024 : S1024x1024.ShapeCasts S1x1024x1024
  natLt_1_32 : 1 < 32
  bcast_S_S32x1024x1024 : S_.BroadcastsInDim S32x1024x1024 (![] : Fin 0 → Fin S32x1024x1024.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S32x1024x1024.size a
  hwx0_0 : ∀ i : grid0.Coords, EltTy.bits .f32 = 32 ∨ (Rect.block (s := S32x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S32x1024x1024.size a
  hwx0_1 : ∀ i : grid0.Coords, EltTy.bits .i32 = 32 ∨ (Rect.block (s := S32x1024x1024) S1x1024x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S32x1024x1024.size a
  hwx0_2 : ∀ i : grid0.Coords, EltTy.bits .f32 = 32 ∨ (Rect.block (s := S32x1024x1024) S1x1024x1024.size (cc0_transform_2 i) (hinb0_2 i)).WholeWords (EltTy.packing .f32)

variable [Facts₀]

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1x1024x1024.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x1x1024x1024 : Shape := ⟨4, ![32, 1, 1024, 1024]⟩
abbrev S32x1024x1024 : Shape := ⟨3, ![32, 1024, 1024]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S32x1x1024x1024, .f32⟩
  | .hbm, ⟨1, _⟩ => ⟨S32x1024x1024, .f32⟩
  | .hbm, ⟨2, _⟩ => ⟨S_, .f32⟩
  | .hbm, ⟨3, _⟩ => ⟨S_, .f32⟩
  | .hbm, ⟨4, _⟩ => ⟨S32x1024x1024, .f32⟩
  | .hbm, ⟨5, _⟩ => ⟨S32x1024x1024, .i1⟩
  | .hbm, ⟨6, _⟩ => ⟨S_, .f32⟩
  | .hbm, ⟨7, _⟩ => ⟨S32x1024x1024, .f32⟩
  | .hbm, ⟨8, _⟩ => ⟨S32x1024x1024, .i1⟩
  | .hbm, ⟨9, _⟩ => ⟨S32x1024x1024, .i1⟩
  | .hbm, ⟨10, _⟩ => ⟨S_, .f32⟩
  | .hbm, ⟨11, _⟩ => ⟨S32x1024x1024, .f32⟩
  | .hbm, ⟨12, _⟩ => ⟨S32x1024x1024, .f32⟩
  | _, _ => ⟨S32x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  shapeCasts_S32x1x1024x1024_S32x1024x1024 : S32x1x1024x1024.ShapeCasts S32x1024x1024
  bcast_S_S_ : S_.BroadcastsInDim S_ (![] : Fin 0 → Fin S_.rank)
  reduceWindows_S32x1024x1024_S32x1024x1024_w1s1p0_0_w3s1p1_1_w3s1p1_1 : S32x1024x1024.ReduceWindows (![1, 3, 3] : Fin 3 → Nat) ![1, 1, 1] ![0, 1, 1] ![0, 1, 1] S32x1024x1024
  h_S_ : 0 < S_.numel
  bcast_S_S32x1024x1024 : S_.BroadcastsInDim S32x1024x1024 (![] : Fin 0 → Fin S32x1024x1024.rank)

variable [Facts₀]

class Facts : Prop extends Facts₀ where

variable [Facts]
-- ==== Proof.Pool.lean ====
/-
  The 3×3 maximum of an image with −∞ outside it, two ways.

  An image is a function of a row and a column, each in 0 … 1023. `padAt x r c` reads the image extended by −∞ (the bottom
  of the extended reals) all around, at coordinates shifted by one: `padAt x (r + 1) (c + 1) = x r c`, and `padAt x r c = ⊥`
  when `r` or `c` is `0` or exceeds `1024`. `rowMax x r c` is the maximum of the three horizontal neighbours of column `c`
  in padded row `r`, and `pool x r c` the maximum of `rowMax` over the three padded rows `r`, `r + 1`, `r + 2`: the maximum of
  the image over the 3×3 neighbourhood of `(r, c)`, computed separably — rows first, then columns.

  A windowed reduction by `max` from −∞ over a 1×3×3 window with one cell of −∞ padding on each side of the two image axes
  folds the same nine padded reads in row-major order. The two agree because `max` is associative and −∞ is its identity: a
  left fold of `max` from `⊥` is characterised by its upper bounds (`foldl_max_le_iff`), and so is `pool`.
  No finiteness of the image's entries is used.
-/
import Idealize.ShloMosaic.PureOps.Ideal
import Idealize.ShloMosaic.PureOps.Ideal.Laws
import Idealize.ShloMosaic.Lib.ValueIdx

noncomputable section

namespace Cert.Peaks

open Idealize.ShloMosaic Idealize.ShloMosaic.ValueIdx

/-- One image: an extended real at each row and column. -/
abbrev Image : Type := Fin 1024 → Fin 1024 → EReal

/-- The stack of 32 images the programs work on. -/
abbrev Stack : Shape := ⟨3, ![32, 1024, 1024]⟩

/-- Image `b` of a stack. -/
def imageOf (X : Stack.Idx → EReal) (b : Fin 32) : Image := fun r c => X (ix3 b r c)

/-- The image extended by −∞ on every side, read at coordinates shifted by one. -/
def padAt (x : Image) (r c : ℕ) : EReal :=
  if h : (1 ≤ r ∧ r - 1 < 1024) ∧ (1 ≤ c ∧ c - 1 < 1024) then x ⟨r - 1, h.1.2⟩ ⟨c - 1, h.2.2⟩ else ⊥

/-- The maximum over the three horizontal neighbours of column `c` in padded row `r`. -/
def rowMax (x : Image) (r c : ℕ) : EReal := max (max (padAt x r c) (padAt x r (c + 1))) (padAt x r (c + 2))

/-- The maximum over the 3×3 neighbourhood of `(r, c)`: the row maxima of the three padded rows. -/
def pool (x : Image) (r c : ℕ) : EReal := max (max (rowMax x r c) (rowMax x (r + 1) c)) (rowMax x (r + 2) c)

/-- The pattern of −∞ denotes the bottom of the extended reals. -/
theorem neg_inf : Ideal.ofBits .f32 0xFF800000#32 = (⊥ : EReal) := by simp [Ideal.ofBits, Ideal.ieee]

/-- Inside the image the padded read is the image. -/
theorem padAt_in (x : Image) (r c : ℕ) (r' c' : Fin 1024) (hr : r = r'.val + 1) (hc : c = c'.val + 1) :
    padAt x r c = x r' c' := by
  subst hr hc
  unfold padAt
  rw [dif_pos ⟨⟨by omega, by omega⟩, ⟨by omega, by omega⟩⟩]
  have e : ∀ (a b : Fin 1024), a = r' → b = c' → x a b = x r' c' := by rintro _ _ rfl rfl; rfl
  exact e _ _ (Fin.ext (by simp)) (Fin.ext (by simp))

/-- Outside it the padded read is −∞. -/
theorem padAt_out (x : Image) (r c : ℕ) (h : r = 0 ∨ 1024 < r ∨ c = 0 ∨ 1024 < c) : padAt x r c = ⊥ := by
  unfold padAt
  rw [dif_neg (by omega)]

/-- A row wholly outside the image has row maximum −∞. -/
theorem rowMax_out (x : Image) (r c : ℕ) (h : r = 0 ∨ 1024 < r) : rowMax x r c = ⊥ := by
  unfold rowMax
  rw [padAt_out x r c (by omega), padAt_out x r (c + 1) (by omega), padAt_out x r (c + 2) (by omega)]
  simp

/-- A left fold of `max` is below a bound exactly when its start and every entry are. -/
theorem foldl_max_le_iff {ι : Type} (f : EReal → EReal → EReal) (hf : ∀ a b, f a b = max a b) (e : ι → EReal)
    (l : List ι) (v z : EReal) :
    l.foldl (fun r k => f r (e k)) v ≤ z ↔ v ≤ z ∧ ∀ k ∈ l, e k ≤ z := by
  induction l generalizing v with
  | nil => simp
  | cons a l ih =>
    rw [List.foldl_cons, ih, hf, max_le_iff]
    simp only [List.mem_cons, forall_eq_or_imp, and_assoc]

/-- `pool` is below a bound exactly when each of the nine padded reads is. -/
theorem pool_le_iff (x : Image) (r c : ℕ) (z : EReal) :
    pool x r c ≤ z ↔ ∀ k l : ℕ, k < 3 → l < 3 → padAt x (r + k) (c + l) ≤ z := by
  unfold pool rowMax
  simp only [max_le_iff]
  constructor
  · rintro ⟨⟨⟨⟨h00, h01⟩, h02⟩, ⟨⟨h10, h11⟩, h12⟩⟩, ⟨⟨h20, h21⟩, h22⟩⟩ k l hk hl
    interval_cases k <;> interval_cases l <;> assumption
  · intro h
    exact ⟨⟨⟨⟨h 0 0 (by omega) (by omega), h 0 1 (by omega) (by omega)⟩, h 0 2 (by omega) (by omega)⟩,
      ⟨⟨h 1 0 (by omega) (by omega), h 1 1 (by omega) (by omega)⟩, h 1 2 (by omega) (by omega)⟩⟩,
      ⟨⟨h 2 0 (by omega) (by omega), h 2 1 (by omega) (by omega)⟩, h 2 2 (by omega) (by omega)⟩⟩

/-! ## Peaks and confidences

An entry is a peak when it equals the 3×3 maximum around it and exceeds the threshold (the single-precision number nearest
0.3, the same binary word in both programs, never evaluated). The confidence map keeps the image at its peaks and is zero
elsewhere. -/

/-- Whether `(r, c)` is a peak of image `x`, as a one-bit word. -/
def peakBit (x : Image) (r c : Fin 1024) : BitVec 1 :=
  IntOp.andi (Ideal.cmp .oeq (pool x r.val c.val) (x r c)) (Ideal.cmp .ogt (x r c) (Ideal.ofBits .f32 0x3E99999A#32))

/-- The peak map of a stack of images. -/
def peakAt (X : Stack.Idx → EReal) (i : Stack.Idx) : BitVec 1 := peakBit (imageOf X (i 0)) (i 1) (i 2)

/-- The peak map as 32-bit words (zero or one). -/
def peakWordAt (X : Stack.Idx → EReal) (i : Stack.Idx) : BitVec 32 := (peakAt X i).setWidth 32

/-- The confidence map of a stack of images. -/
def confAt (X : Stack.Idx → EReal) (i : Stack.Idx) : EReal :=
  Scalar.select (peakAt X i) (X i) (Ideal.ofBits .f32 0x00000000#32)

/-- A one-bit word widened to 32 bits is nonzero exactly when the bit is set. -/
theorem setWidth_ne_zero (p : BitVec 1) : IntOp.cmpi .ne (p.setWidth 32) 0#32 = p := by
  rcases BitVec.eq_zero_or_eq_one p with h | h <;> subst h <;> decide

end Cert.Peaks

end
-- ==== Proof.Body.lean ====
/-
  What the kernel body computes on one image, read at a row and a column.

  The body works on one 1024×1024 image `v`. A pass along an axis takes, at every entry, the maximum of the entry before it
  on that axis, the entry itself and the entry after it: the neighbours are the image rotated by one place either way, with
  the entry that wrapped around the edge replaced by −∞ (the first place's "before", the last place's "after"; the masks
  compare the axis coordinate with 0 and with 1023). The pass along the columns is therefore the row maximum `rowMax` of the
  image padded by −∞ (`rowPass_apply`), and the pass along the rows, applied to that, is `pool` (`colPass_apply`): the rows
  above the first and below the last have row maximum −∞, which is what the masks put there. The peak bit, the confidence
  and the peak as a 32-bit word follow entry by entry (`peak_payload`, `conf_payload`, `word_payload`).
-/
import proofs.«153056_j31808527794318_2_alg».proof.Proof.Pool
import proofs.«153056_j31808527794318_2_alg».proof.Proof.Gen.KernelIdeal.Skeleton
import Idealize.ShloMosaic.Lib.KernelVsHost
import Idealize.ShloMosaic.Lib.Pipeline.Value

noncomputable section

namespace Cert.Peaks

open Idealize.ShloMosaic Idealize.ShloMosaic.ValueIdx

/-- One image as a vector, and one image as a block of the stack. -/
abbrev Img : Shape := ⟨2, ![1024, 1024]⟩
abbrev Blk : Shape := ⟨3, ![1, 1024, 1024]⟩

/-- A vector of image shape as an image. -/
def imgOf (v : Img.Idx → EReal) : Image := fun r c => v (ix2 r c)

/-- A select on the comparison of a coordinate with an edge's number. -/
theorem select_edge (n k : ℕ) (hn : n < 1024) (hk : k < 1024) (A B : EReal) :
    Scalar.select (IntOp.cmpi .eq (BitVec.ofNat 32 n) (BitVec.ofNat 32 k)) A B = if n = k then A else B := by
  unfold Scalar.select IntOp.cmpi
  by_cases h : n = k
  · subst h; simp
  · have hne : (BitVec.ofNat 32 n == BitVec.ofNat 32 k) = false := by
      rw [beq_eq_false_iff_ne]
      intro e
      apply h
      have e' := congrArg BitVec.toNat e
      simp only [BitVec.toNat_ofNat] at e'
      omega
    simp [hne, h]

section Passes

variable (v : FVec Ideal Img .f32)

/-- The entry before, along a row; −∞ before the first column. -/
theorem col_before (hi : Img.Iotas .tc 32 [1]) (hr : Img.Rotates 1 none) (r c : Fin 1024) :
    select (cmpi .eq (iota .tc Img 32 [1] hi) (broadcast Img 0#32))
        (broadcast Img (Scalar.ofBits (F := Ideal) .f32 0xFF800000#32)) (dynamicRotate 1 1#32 none v hr) (ix2 r c)
      = padAt (imgOf v) (r.val + 1) c.val := by
  show Scalar.select (IntOp.cmpi .eq (iota .tc Img 32 [1] hi (ix2 r c)) 0#32) (Ideal.ofBits .f32 0xFF800000#32)
      (dynamicRotate 1 1#32 none v hr (ix2 r c)) = _
  rw [iota_single_apply, neg_inf]
  show Scalar.select (IntOp.cmpi .eq (BitVec.ofNat 32 c.val) (BitVec.ofNat 32 0)) ⊥ _ = _
  rw [select_edge c.val 0 c.isLt (by omega)]
  have hc' : c.val < 1024 := c.isLt
  by_cases hc : c.val = 0
  · rw [if_pos hc, padAt_out _ _ _ (by omega)]
  · rw [if_neg hc, dynamicRotate_apply 1 1#32 v hr (ix2 r c) (ix2 r ⟨c.val - 1, by omega⟩) (fun b => match b with
        | ⟨0, _⟩ => (if_neg (Fin.ne_of_val_ne Nat.zero_ne_one)).symm
        | ⟨1, _⟩ => by show c.val - 1 = (c.val + 1024 - 1 % 1024) % 1024; omega)]
    exact (padAt_in (imgOf v) _ _ r ⟨c.val - 1, by omega⟩ rfl (by show c.val = c.val - 1 + 1; omega)).symm

/-- The entry after, along a row; −∞ after the last column. -/
theorem col_after (hi : Img.Iotas .tc 32 [1]) (hr : Img.Rotates 1 none) (r c : Fin 1024) :
    select (cmpi .eq (iota .tc Img 32 [1] hi) (broadcast Img 1023#32))
        (broadcast Img (Scalar.ofBits (F := Ideal) .f32 0xFF800000#32)) (dynamicRotate 1 1023#32 none v hr) (ix2 r c)
      = padAt (imgOf v) (r.val + 1) (c.val + 2) := by
  show Scalar.select (IntOp.cmpi .eq (iota .tc Img 32 [1] hi (ix2 r c)) 1023#32) (Ideal.ofBits .f32 0xFF800000#32)
      (dynamicRotate 1 1023#32 none v hr (ix2 r c)) = _
  rw [iota_single_apply, neg_inf]
  show Scalar.select (IntOp.cmpi .eq (BitVec.ofNat 32 c.val) (BitVec.ofNat 32 1023)) ⊥ _ = _
  rw [select_edge c.val 1023 c.isLt (by omega)]
  have hc' : c.val < 1024 := c.isLt
  by_cases hc : c.val = 1023
  · rw [if_pos hc, padAt_out _ _ _ (by omega)]
  · rw [if_neg hc, dynamicRotate_apply 1 1023#32 v hr (ix2 r c) (ix2 r ⟨c.val + 1, by omega⟩) (fun b => match b with
        | ⟨0, _⟩ => (if_neg (Fin.ne_of_val_ne Nat.zero_ne_one)).symm
        | ⟨1, _⟩ => by show c.val + 1 = (c.val + 1024 - 1023 % 1024) % 1024; omega)]
    exact (padAt_in (imgOf v) _ _ r ⟨c.val + 1, by omega⟩ rfl (by show c.val + 2 = c.val + 1 + 1; omega)).symm

/-- The entry before, along a column; −∞ above the first row. -/
theorem row_before (hi : Img.Iotas .tc 32 [0]) (hr : Img.Rotates 0 none) (r c : Fin 1024) :
    select (cmpi .eq (iota .tc Img 32 [0] hi) (broadcast Img 0#32))
        (broadcast Img (Scalar.ofBits (F := Ideal) .f32 0xFF800000#32)) (dynamicRotate 0 1#32 none v hr) (ix2 r c)
      = if h : r.val = 0 then ⊥ else v (ix2 ⟨r.val - 1, Nat.lt_of_le_of_lt (Nat.sub_le _ _) r.isLt⟩ c) := by
  show Scalar.select (IntOp.cmpi .eq (iota .tc Img 32 [0] hi (ix2 r c)) 0#32) (Ideal.ofBits .f32 0xFF800000#32)
      (dynamicRotate 0 1#32 none v hr (ix2 r c)) = _
  rw [iota_single_apply, neg_inf]
  show Scalar.select (IntOp.cmpi .eq (BitVec.ofNat 32 r.val) (BitVec.ofNat 32 0)) ⊥ _ = _
  rw [select_edge r.val 0 r.isLt (by omega)]
  have hr' : r.val < 1024 := r.isLt
  by_cases h0 : r.val = 0
  · rw [if_pos h0, dif_pos h0]
  · rw [if_neg h0, dif_neg h0]
    exact dynamicRotate_apply 0 1#32 v hr (ix2 r c) (ix2 ⟨r.val - 1, _⟩ c) (fun b => match b with
        | ⟨0, _⟩ => by show r.val - 1 = (r.val + 1024 - 1 % 1024) % 1024; omega
        | ⟨1, _⟩ => (if_neg (Fin.ne_of_val_ne Nat.one_ne_zero)).symm)

/-- The entry after, along a column; −∞ below the last row. -/
theorem row_after (hi : Img.Iotas .tc 32 [0]) (hr : Img.Rotates 0 none) (r c : Fin 1024) :
    select (cmpi .eq (iota .tc Img 32 [0] hi) (broadcast Img 1023#32))
        (broadcast Img (Scalar.ofBits (F := Ideal) .f32 0xFF800000#32)) (dynamicRotate 0 1023#32 none v hr) (ix2 r c)
      = if h : r.val = 1023 then ⊥
        else v (ix2 ⟨r.val + 1, by have := r.isLt; omega⟩ c) := by
  show Scalar.select (IntOp.cmpi .eq (iota .tc Img 32 [0] hi (ix2 r c)) 1023#32) (Ideal.ofBits .f32 0xFF800000#32)
      (dynamicRotate 0 1023#32 none v hr (ix2 r c)) = _
  rw [iota_single_apply, neg_inf]
  show Scalar.select (IntOp.cmpi .eq (BitVec.ofNat 32 r.val) (BitVec.ofNat 32 1023)) ⊥ _ = _
  rw [select_edge r.val 1023 r.isLt (by omega)]
  have hr' : r.val < 1024 := r.isLt
  by_cases h0 : r.val = 1023
  · rw [if_pos h0, dif_pos h0]
  · rw [if_neg h0, dif_neg h0]
    exact dynamicRotate_apply 0 1023#32 v hr (ix2 r c) (ix2 ⟨r.val + 1, _⟩ c) (fun b => match b with
        | ⟨0, _⟩ => by show r.val + 1 = (r.val + 1024 - 1023 % 1024) % 1024; omega
        | ⟨1, _⟩ => (if_neg (Fin.ne_of_val_ne Nat.one_ne_zero)).symm)

/-- The pass along the columns: the maximum of each entry and its two neighbours in the row. -/
def rowPass (hi : Img.Iotas .tc 32 [1]) (hr : Img.Rotates 1 none) : FVec Ideal Img .f32 :=
  maximumf (maximumf (select (cmpi .eq (iota .tc Img 32 [1] hi) (broadcast Img 0#32))
      (broadcast Img (Scalar.ofBits (F := Ideal) .f32 0xFF800000#32)) (dynamicRotate 1 1#32 none v hr)) v)
    (select (cmpi .eq (iota .tc Img 32 [1] hi) (broadcast Img 1023#32))
      (broadcast Img (Scalar.ofBits (F := Ideal) .f32 0xFF800000#32)) (dynamicRotate 1 1023#32 none v hr))

/-- The pass along the rows: the maximum of each entry and its two neighbours in the column. -/
def colPass (hi : Img.Iotas .tc 32 [0]) (hr : Img.Rotates 0 none) : FVec Ideal Img .f32 :=
  maximumf (maximumf (select (cmpi .eq (iota .tc Img 32 [0] hi) (broadcast Img 0#32))
      (broadcast Img (Scalar.ofBits (F := Ideal) .f32 0xFF800000#32)) (dynamicRotate 0 1#32 none v hr)) v)
    (select (cmpi .eq (iota .tc Img 32 [0] hi) (broadcast Img 1023#32))
      (broadcast Img (Scalar.ofBits (F := Ideal) .f32 0xFF800000#32)) (dynamicRotate 0 1023#32 none v hr))

/-- The pass along the columns is the row maximum of the image padded by −∞. -/
theorem rowPass_apply (hi : Img.Iotas .tc 32 [1]) (hr : Img.Rotates 1 none) (r c : Fin 1024) :
    rowPass v hi hr (ix2 r c) = rowMax (imgOf v) (r.val + 1) c.val := by
  unfold rowPass rowMax
  rw [maximumf_apply, maximumf_apply, col_before, col_after,
    padAt_in (imgOf v) (r.val + 1) (c.val + 1) r c rfl rfl]
  rfl

end Passes

/-- The pass along the rows, applied to a vector whose entry at `(r, c)` is `g (r + 1) c` for a function `g` that is −∞ in
    rows 0 and 1025, is the maximum of `g` over the rows `r`, `r + 1`, `r + 2`. -/
theorem colPass_apply (y : FVec Ideal Img .f32) (g : ℕ → ℕ → EReal) (hy : ∀ r c : Fin 1024, y (ix2 r c) = g (r.val + 1) c.val)
    (h0 : ∀ c, g 0 c = ⊥) (h1025 : ∀ c, g 1025 c = ⊥) (hi : Img.Iotas .tc 32 [0]) (hr : Img.Rotates 0 none)
    (r c : Fin 1024) :
    colPass y hi hr (ix2 r c) = max (max (g r.val c.val) (g (r.val + 1) c.val)) (g (r.val + 2) c.val) := by
  have hr' : r.val < 1024 := r.isLt
  unfold colPass
  rw [maximumf_apply, maximumf_apply, row_before, row_after, hy r c]
  have e1 : (if h : r.val = 0 then (⊥ : EReal) else y (ix2 ⟨r.val - 1, Nat.lt_of_le_of_lt (Nat.sub_le _ _) r.isLt⟩ c))
      = g r.val c.val := by
    by_cases h : r.val = 0
    · rw [dif_pos h, h, h0]
    · rw [dif_neg h, hy]
      show g (r.val - 1 + 1) c.val = _
      rw [Nat.sub_add_cancel (by omega)]
  have e2 : (if h : r.val = 1023 then (⊥ : EReal) else y (ix2 ⟨r.val + 1, by have := r.isLt; omega⟩ c))
      = g (r.val + 2) c.val := by
    by_cases h : r.val = 1023
    · rw [dif_pos h, h, h1025]
    · rw [dif_neg h, hy]
  rw [e1, e2]

/-- The two passes, columns then rows, give the 3×3 maximum of the image padded by −∞. -/
theorem passes_apply (v : FVec Ideal Img .f32) (hi1 : Img.Iotas .tc 32 [1]) (hr1 : Img.Rotates 1 none)
    (hi0 : Img.Iotas .tc 32 [0]) (hr0 : Img.Rotates 0 none) (r c : Fin 1024) :
    colPass (rowPass v hi1 hr1) hi0 hr0 (ix2 r c) = pool (imgOf v) r.val c.val := by
  unfold pool
  exact colPass_apply (rowPass v hi1 hr1) (rowMax (imgOf v)) (fun r c => rowPass_apply v hi1 hr1 r c)
    (fun c => rowMax_out _ _ _ (by omega)) (fun c => rowMax_out _ _ _ (by omega)) hi0 hr0 r c

/-! ## The body's three payloads

The body loads the image as a 1×1024×1024 block, drops the unit axis, computes on the image, and puts the unit axis back
on what it stores. Below, `x0` is the loaded block and `X` a stack of which it is image `b`. -/

open Cert.KernelIdeal Cert.KernelIdeal.Gen

/-- Putting a unit axis in front of an image-shaped vector reads the vector at the row and column. -/
theorem addUnit_apply {α : Type} (v : Img.Idx → α) (h : Img.ShapeCasts Blk) (r c : Fin 1024) :
    shapeCast Blk v h (ix3 (0 : Fin 1) r c) = v (ix2 r c) := by
  refine (shapeCast_addUnit_apply ![1024, 1024] v h (ix3 (0 : Fin 1) r c)).trans (congrArg v (funext fun a => ?_))
  match a with
  | ⟨0, _⟩ => rfl
  | ⟨1, _⟩ => rfl

/-- Dropping the unit axis of a block reads the block at image 0, the row and the column. -/
theorem dropUnit_apply {α : Type} (v : Blk.Idx → α) (h : Blk.ShapeCasts Img) (r c : Fin 1024) :
    shapeCast Img v h (ix2 r c) = v (ix3 (0 : Fin 1) r c) := by
  refine (shapeCast_dropUnit_apply ![1024, 1024] v h (ix2 r c)).trans (congrArg v (funext fun a => ?_))
  match a with
  | ⟨0, _⟩ => rfl
  | ⟨1, _⟩ => rfl
  | ⟨2, _⟩ => rfl

/-- The image a block holds. -/
def blkImage (x0 : Blk.Idx → EReal) : Image := fun r c => x0 (ix3 (0 : Fin 1) r c)

/-- The image the body computes on is the block's. -/
theorem pay2_apply (x0 : Vec Ideal S1x1024x1024 .f32) (r c : Fin 1024) :
    k0_pay2 (F := Ideal) x0 (ix2 r c) = x0 (ix3 (0 : Fin 1) r c) := by
  unfold k0_pay2
  exact dropUnit_apply x0 _ r c

theorem imgOf_pay2 (x0 : Vec Ideal S1x1024x1024 .f32) : imgOf (k0_pay2 (F := Ideal) x0) = blkImage x0 :=
  funext fun r => funext fun c => pay2_apply x0 r c

/-- The mask the body computes: at each entry, whether it is a peak of the block's image. -/
theorem pay3_apply (x0 : Vec Ideal S1x1024x1024 .f32) (r c : Fin 1024) :
    k0_pay3 (F := Ideal) x0 (ix2 r c) = peakBit (blkImage x0) r c := by
  have e : k0_pay3 (F := Ideal) x0
      = andi (cmpf .oeq (colPass (rowPass (k0_pay2 x0) iota_S1024x1024_d1_w32 rotates_S1024x1024_d1)
            iota_S1024x1024_d0_w32 rotates_S1024x1024_d0) (k0_pay2 x0))
          (cmpf .ogt (k0_pay2 x0) (broadcast Img (Scalar.ofBits (F := Ideal) .f32 0x3E99999A#32))) := rfl
  rw [e]
  show IntOp.andi (Ideal.cmp .oeq (colPass (rowPass (k0_pay2 x0) _ _) _ _ (ix2 r c)) (k0_pay2 x0 (ix2 r c)))
      (Ideal.cmp .ogt (k0_pay2 x0 (ix2 r c)) (Ideal.ofBits .f32 0x3E99999A#32)) = _
  rw [passes_apply, pay2_apply, imgOf_pay2]
  rfl

section Payloads

variable (x0 : Vec Ideal S1x1024x1024 .f32) (X : Stack.Idx → EReal) (b : Fin 32)
  (hx : ∀ r c : Fin 1024, x0 (ix3 (0 : Fin 1) r c) = X (ix3 b r c))
include hx

theorem blkImage_eq : blkImage x0 = imageOf X b := funext fun r => funext fun c => hx r c

/-- The confidences the body stores, at an entry of the block, are the stack's confidence map at that entry of image `b`. -/
theorem conf_payload (y : Blk.Idx) : k0_pay4 (F := Ideal) x0 y = confAt X (ix3 b (y 1) (y 2)) := by
  obtain ⟨p, r, c, rfl⟩ : ∃ (p : Fin 1) (r c : Fin 1024), y = ix3 p r c := ⟨y 0, y 1, y 2, eq_ix3 y⟩
  obtain rfl : p = 0 := Subsingleton.elim _ _
  unfold k0_pay4
  refine (addUnit_apply _ _ r c).trans ?_
  show Scalar.select (k0_pay3 x0 (ix2 r c)) (k0_pay2 x0 (ix2 r c)) (Ideal.ofBits .f32 0x00000000#32) = _
  rw [pay3_apply, pay2_apply, blkImage_eq x0 X b hx, hx]
  rfl

/-- The peak words the body stores are the stack's peak map, widened to 32 bits, at that entry of image `b`. -/
theorem word_payload (y : Blk.Idx) : k0_pay1 (k0_pay3 (F := Ideal) x0) y = peakWordAt X (ix3 b (y 1) (y 2)) := by
  obtain ⟨p, r, c, rfl⟩ : ∃ (p : Fin 1) (r c : Fin 1024), y = ix3 p r c := ⟨y 0, y 1, y 2, eq_ix3 y⟩
  obtain rfl : p = 0 := Subsingleton.elim _ _
  unfold k0_pay1
  refine (addUnit_apply _ _ r c).trans ?_
  show (k0_pay3 x0 (ix2 r c)).setWidth 32 = _
  rw [pay3_apply, blkImage_eq x0 X b hx]
  rfl

end Payloads

end Cert.Peaks

end
-- ==== Proof.Blocks.lean ====
/-
  From blocks to arrays: what the kernel's two output arrays hold after the region.

  Grid point `t` (of 32) stages image `t` of the stack — block index `(t, 0, 0)` with blocks of one whole image, for the input
  and for both outputs (`idx_facts`, decided over the points). So the block the body loads at point `t` is image `t` of the stack
  as the region finds it (`iblk_apply`), what the point writes back to either output is the block at `t` of ONE function of
  the whole stack — the confidence map, respectively the peak map as 32-bit words — (`flushed_conf`, `flushed_word`), and every
  index `(b, r, c)` of an output array lies in the block of point `b` (`cover_conf`, `cover_word`). Hence each output array ends
  holding that function (`final_conf`, `final_word`).
-/
import proofs.«153056_j31808527794318_2_alg».proof.Proof.Body
import proofs.«153056_j31808527794318_2_alg».proof.Proof.Gen.KernelIdeal.Frame
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.Peaks.Kernel

open Cert.KernelIdeal Cert.KernelIdeal.Gen Cert.Peaks

variable (m : (ℓ : Loc nD τ sig) → Buf (Elt Ideal) ℓ) (ρ : Dev nD → PrngReg)

theorem hz : (![0, 0, 0] : Fin 3 → Nat) = fun _ => 0 := funext fun a => by fin_cases a <;> rfl

/-- The stack of images as the region finds it. -/
abbrev stack (c : Dev nD) : Stack.Idx → EReal := V m c main_v0

/-- The printed index maps, decided over the grid: point `t` is image `t`, on the input and on both outputs. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

theorem point_lt (t : Fin cfg0.N) : t.val < 32 := Nat.lt_of_lt_of_eq t.isLt N_0

/-- The block the body loads at point `t` is image `t` of the stack. -/
theorem iblk_apply (c : Dev nD) (t : Fin cfg0.N) (r cc : Fin 1024) :
    (iblk m c 0 t : Vec Ideal S1x1024x1024 .f32) (ix3 (0 : Fin 1) r cc) = stack m c (ix3 ⟨t.val, point_lt t⟩ r cc) := by
  obtain ⟨e0, e1, e2, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 3) * 1 + 1 * 0 = t.val; rw [e0]; omega
  | ⟨1, _⟩ => show win0_0.index t (1 : Fin 3) * 1024 + 1 * r.val = r.val; rw [e1]; omega
  | ⟨2, _⟩ => show win0_0.index t (2 : Fin 3) * 1024 + 1 * cc.val = cc.val; rw [e2]; omega

/-- WHAT POINT `t` WRITES BACK to the confidence array is block `t` of the stack's confidence map. -/
theorem flushed_conf (c : Dev nD) (t : Fin cfg0.N) :
    (dats m 0 c).flushed 2 t = ((cfg0.win 2).blk t).view.read (Elt Ideal) (confAt (stack m c)) := by
  obtain ⟨-, -, -, -, -, -, e0, e1, e2⟩ := idx_facts t
  show (cfg0.win 2).cut (grid0.coords t) ((dats m 0 c).after 2 t) = _
  rw [after0_2]
  unfold out0_2
  rw [View.canon_unit_zero hz]
  simp only [View.ld_unit_zero (S := S1x1024x1024) hz]
  funext j
  have h0 : (j 0).val < 1 := (j 0).isLt
  show k0_pay4 (F := Ideal) (iblk m c 0 t) ((cfg0.win 2).xinj (grid0.coords t) j)
    = confAt (stack m c) (((cfg0.win 2).blk t).view.emb j)
  refine (conf_payload (iblk m c 0 t) (stack m c) ⟨t.val, point_lt t⟩ (fun r cc => iblk_apply m c t r cc) _).trans ?_
  refine congrArg (confAt (stack m c)) (funext fun a => Fin.ext ?_)
  match a with
  | ⟨0, _⟩ => show t.val = win0_2.index t (0 : Fin 3) * 1 + 1 * (j 0).val; rw [e0]; omega
  | ⟨1, _⟩ => show (j 1).val = win0_2.index t (1 : Fin 3) * 1024 + 1 * (j 1).val; rw [e1]; omega
  | ⟨2, _⟩ => show (j 2).val = win0_2.index t (2 : Fin 3) * 1024 + 1 * (j 2).val; rw [e2]; omega

/-- WHAT POINT `t` WRITES BACK to the peak-word array is block `t` of the stack's peak map as 32-bit words. -/
theorem flushed_word (c : Dev nD) (t : Fin cfg0.N) :
    (dats m 0 c).flushed 1 t = ((cfg0.win 1).blk t).view.read (Elt Ideal) (peakWordAt (stack m c)) := by
  obtain ⟨-, -, -, e0, e1, e2, -⟩ := idx_facts t
  show (cfg0.win 1).cut (grid0.coords t) ((dats m 0 c).after 1 t) = _
  rw [after0_1]
  unfold out0_1
  rw [View.canon_unit_zero hz]
  simp only [View.ld_unit_zero (S := S1x1024x1024) hz]
  funext j
  have h0 : (j 0).val < 1 := (j 0).isLt
  show k0_pay1 (k0_pay3 (F := Ideal) (iblk m c 0 t)) ((cfg0.win 1).xinj (grid0.coords t) j)
    = peakWordAt (stack m c) (((cfg0.win 1).blk t).view.emb j)
  refine (word_payload (iblk m c 0 t) (stack m c) ⟨t.val, point_lt t⟩ (fun r cc => iblk_apply m c t r cc) _).trans ?_
  refine congrArg (peakWordAt (stack m c)) (funext fun a => Fin.ext ?_)
  match a with
  | ⟨0, _⟩ => show t.val = win0_1.index t (0 : Fin 3) * 1 + 1 * (j 0).val; rw [e0]; omega
  | ⟨1, _⟩ => show (j 1).val = win0_1.index t (1 : Fin 3) * 1024 + 1 * (j 1).val; rw [e1]; omega
  | ⟨2, _⟩ => show (j 2).val = win0_1.index t (2 : Fin 3) * 1024 + 1 * (j 2).val; rw [e2]; omega

/-- An index of the confidence array is in point `t`'s block iff each coordinate is in the block's range on its axis. -/
theorem mem_blk_conf (t : Fin cfg0.N) (i : S32x1024x1024.Idx) :
    i ∈ ((cfg0.win 2).blk t).view.set ↔ ∀ a : Fin 3, win0_2.index t a * S1x1024x1024.size a ≤ (i a).val
      ∧ (i a).val < win0_2.index t a * S1x1024x1024.size a + S1x1024x1024.size a := by
  show i ∈ ((View.whole main_v1_1).slice (win0_2.rect t)).set ↔ _
  rw [View.set_slice_whole, Rect.mem_set_unit]
  exact Iff.rfl

theorem mem_blk_word (t : Fin cfg0.N) (i : S32x1024x1024.Idx) :
    i ∈ ((cfg0.win 1).blk t).view.set ↔ ∀ a : Fin 3, win0_1.index t a * S1x1024x1024.size a ≤ (i a).val
      ∧ (i a).val < win0_1.index t a * S1x1024x1024.size a + S1x1024x1024.size a := by
  show i ∈ ((View.whole main_v1_0).slice (win0_1.rect t)).set ↔ _
  rw [View.set_slice_whole, Rect.mem_set_unit]
  exact Iff.rfl

/-- Every index `(b, r, c)` of the confidence array is in the block of point `b`. -/
theorem cover_conf (i : S32x1024x1024.Idx) :
    ∃ t : Fin cfg0.N, (cfg0.win 2).flush t = true ∧ i ∈ ((cfg0.win 2).blk t).view.set := by
  have hi0 : (i 0).val < 32 := (i 0).isLt
  have hi1 : (i 1).val < 1024 := (i 1).isLt
  have hi2 : (i 2).val < 1024 := (i 2).isLt
  obtain ⟨t, ht⟩ : ∃ t : Fin cfg0.N, t.val = (i 0).val :=
    ⟨⟨(i 0).val, by rw [show cfg0.N = 32 from N_0]; exact hi0⟩, rfl⟩
  obtain ⟨-, -, -, -, -, -, e0, e1, e2⟩ := idx_facts t
  refine ⟨t, flush0_2 t, ?_⟩
  rw [mem_blk_conf]
  intro a
  match a with
  | ⟨0, _⟩ => show win0_2.index t (0 : Fin 3) * 1 ≤ (i 0).val ∧ (i 0).val < win0_2.index t (0 : Fin 3) * 1 + 1; rw [e0]; omega
  | ⟨1, _⟩ => show win0_2.index t (1 : Fin 3) * 1024 ≤ (i 1).val ∧ (i 1).val < win0_2.index t (1 : Fin 3) * 1024 + 1024; rw [e1]; omega
  | ⟨2, _⟩ => show win0_2.index t (2 : Fin 3) * 1024 ≤ (i 2).val ∧ (i 2).val < win0_2.index t (2 : Fin 3) * 1024 + 1024; rw [e2]; omega

theorem cover_word (i : S32x1024x1024.Idx) :
    ∃ t : Fin cfg0.N, (cfg0.win 1).flush t = true ∧ i ∈ ((cfg0.win 1).blk t).view.set := by
  have hi0 : (i 0).val < 32 := (i 0).isLt
  have hi1 : (i 1).val < 1024 := (i 1).isLt
  have hi2 : (i 2).val < 1024 := (i 2).isLt
  obtain ⟨t, ht⟩ : ∃ t : Fin cfg0.N, t.val = (i 0).val :=
    ⟨⟨(i 0).val, by rw [show cfg0.N = 32 from N_0]; exact hi0⟩, rfl⟩
  obtain ⟨-, -, -, e0, e1, e2, -⟩ := idx_facts t
  refine ⟨t, flush0_1 t, ?_⟩
  rw [mem_blk_word]
  intro a
  match a with
  | ⟨0, _⟩ => show win0_1.index t (0 : Fin 3) * 1 ≤ (i 0).val ∧ (i 0).val < win0_1.index t (0 : Fin 3) * 1 + 1; rw [e0]; omega
  | ⟨1, _⟩ => show win0_1.index t (1 : Fin 3) * 1024 ≤ (i 1).val ∧ (i 1).val < win0_1.index t (1 : Fin 3) * 1024 + 1024; rw [e1]; omega
  | ⟨2, _⟩ => show win0_1.index t (2 : Fin 3) * 1024 ≤ (i 2).val ∧ (i 2).val < win0_1.index t (2 : Fin 3) * 1024 + 1024; rw [e2]; omega

/-- THE CONFIDENCE ARRAY after the region: the stack's confidence map. -/
theorem final_conf (c : Dev nD) : (dats m 0 c).arrAt 2 cfg0.N = confAt (stack m c) :=
  (dats m 0 c).arrAt_eq_of_cover 2 (confAt (stack m c)) (fun t _ => flushed_conf m c t) cover_conf

/-- THE PEAK-WORD ARRAY after the region: the stack's peak map as 32-bit words. -/
theorem final_word (c : Dev nD) : (dats m 0 c).arrAt 1 cfg0.N = peakWordAt (stack m c) :=
  (dats m 0 c).arrAt_eq_of_cover 1 (peakWordAt (stack m c)) (fun t _ => flushed_word m c t) cover_word

end Cert.Peaks.Kernel

end
-- ==== Proof.Run.lean ====
/-
  The kernel program's run, read: both results as functions of the stack of images.

  Before the region the host reshapes the argument [32, 1, 1024, 1024] to the stack [32, 1024, 1024] (`stack_eq`). The region
  leaves the confidence map in one array and the peak map, as 32-bit words, in the other (`final_conf`, `final_word`). After
  the region the host compares the words with zero: a one-bit word widened to 32 bits differs from zero exactly when the bit
  is set, so the comparison gives back the peak map itself (`tail_peak`). The argument array is never written.
-/
import proofs.«153056_j31808527794318_2_alg».proof.Proof.Blocks
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.Peaks.Kernel

open Cert.KernelIdeal Cert.KernelIdeal.Gen Cert.Peaks

variable (m : (ℓ : Loc nD τ sig) → Buf (Elt Ideal) ℓ) (ρ : Dev nD → PrngReg)

/-- The stack the region finds is the argument reshaped. -/
theorem stack_eq (c : Dev nD) :
    stack m c = shapeCast S32x1024x1024 (m ((c : Thread nD τ).loc main_arg0)) shapeCasts_S32x1x1024x1024_S32x1024x1024 := by
  show StableHlo.after hostOps0 (fun b => m (c, b)) (Proc.devRef .tc main_v0) = _
  after_results
  rfl

/-- The host's comparison with zero after the region turns the peak words back into the peak map. -/
theorem tail_peak (c : Dev nD) :
    Pipeline.afterTail₀ cfgs (dats m) 0 (V0 m) [hostOps1] c main_v4 = peakAt (stack m c) := by
  unfold Pipeline.afterTail₀
  show StableHlo.after hostOps1 _ (Proc.devRef .tc main_v4) = _
  after_results
  have hw : Pipeline.withArrays (cfgs 0).spec c (V0 m c) (fun w => (dats m 0 c).arrAt w (cfgs 0).N)
      (Proc.devRef .tc main_v1_0) = peakWordAt (stack m c) :=
    (Pipeline.withArrays_arr spec0 launch0.win.arr_inj c _ _ 1).trans (final_word m c)
  rw [hw]
  funext i
  show IntOp.cmpi .ne ((peakAt (stack m c) i).setWidth 32) 0#32 = peakAt (stack m c) i
  exact setWidth_ne_zero _

/-- The frame run re-posted: the peak map, the confidence map, the argument unchanged. -/
theorem run : θ_run defs (onTc (τ := τ) (main (F := Ideal))) ⟨m, fun _ => 0, ρ⟩ fun r => ∀ c : Dev nD,
      r.2.mem ((c : Thread nD τ).loc main_v4) = peakAt (stack m c)
      ∧ r.2.mem ((c : Thread nD τ).loc main_v1_1) = confAt (stack m c)
      ∧ r.2.mem ((c : Thread nD τ).loc main_arg0) = m ((c : Thread nD τ).loc main_arg0) :=
  (θ_run defs _ _).mono (fun r h c =>
      ⟨((h c).2 main_v4 (Pipeline.mem_restRefs_of main_v4 (by decide) (by decide))).trans (tail_peak m c),
        ((h c).1 2).trans (final_conf m c),
        ((h c).2 main_arg0 (Pipeline.mem_restRefs_of main_arg0 (by decide) (by decide))).trans (W_main_arg0 m (dats m) c)⟩)
    (run_main m ρ)

end Cert.Peaks.Kernel

end
-- ==== Proof.Window.lean ====
/-
  A windowed maximum over a stack of images, read at an index.

  The reduction folds `max` from its initial value over the nine positions `w` of a 1×3×3 window in row-major order; at
  output index `(b, r, c)` position `w` reads the operand at `(b, r + w₁ − 1, c + w₂ − 1)` when that lies in the stack and the
  initial value otherwise (one cell of padding below and above on the two image axes, none on the stack axis). With the
  initial value −∞ that is the padded read `padAt (imageOf X b) (r + w₁) (c + w₂)` (`cell_eq`), so the fold and `pool` have
  the same upper bounds, hence are equal (`reduceWindow_apply`).
-/
import proofs.«153056_j31808527794318_2_alg».proof.Proof.Pool
import Idealize.ShloMosaic.PureOps

noncomputable section

namespace Cert.Peaks

open Idealize.ShloMosaic Idealize.ShloMosaic.ValueIdx

/-- The window's shape: one image, three rows, three columns. -/
abbrev Win : Shape := ⟨Stack.rank, ![1, 3, 3]⟩

/-- What the windowed reduction from −∞ reads at window position `w` of output index `(b, r, c)`. -/
def cell (X : Stack.Idx → EReal) (b : Fin 32) (r c : Fin 1024) (hc : Stack.rank = Stack.rank) (w : Win.Idx) : EReal :=
  if hin : ∀ a : Fin Stack.rank, (![0, 1, 1] : Fin Stack.rank → ℕ) a
        ≤ ((ix3 b r c : Stack.Idx) (a.cast hc)).val * (![1, 1, 1] : Fin Stack.rank → ℕ) a + (w a).val
      ∧ ((ix3 b r c : Stack.Idx) (a.cast hc)).val * (![1, 1, 1] : Fin Stack.rank → ℕ) a + (w a).val
          - (![0, 1, 1] : Fin Stack.rank → ℕ) a < Stack.size a then
    X (fun a => ⟨((ix3 b r c : Stack.Idx) (a.cast hc)).val * (![1, 1, 1] : Fin Stack.rank → ℕ) a + (w a).val
      - (![0, 1, 1] : Fin Stack.rank → ℕ) a, (hin a).2⟩)
  else ⊥

/-- A window position reads the image padded by −∞, at the output's row and column moved by the position. -/
theorem cell_eq (X : Stack.Idx → EReal) (b : Fin 32) (r c : Fin 1024) (hc : Stack.rank = Stack.rank) (w : Win.Idx) :
    cell X b r c hc w = padAt (imageOf X b) (r.val + (w 1).val) (c.val + (w 2).val) := by
  have h0 : (w 0).val < 1 := (w 0).isLt
  have h1 : (w 1).val < 3 := (w 1).isLt
  have h2 : (w 2).val < 3 := (w 2).isLt
  unfold cell
  split_ifs with H
  · have H1 : 1 ≤ r.val * 1 + (w 1).val ∧ r.val * 1 + (w 1).val - 1 < 1024 := H ⟨1, Nat.one_lt_succ_succ 1⟩
    have H2 : 1 ≤ c.val * 1 + (w 2).val ∧ c.val * 1 + (w 2).val - 1 < 1024 := H ⟨2, Nat.lt_succ_self 2⟩
    rw [padAt_in (imageOf X b) _ _ ⟨r.val + (w 1).val - 1, by omega⟩ ⟨c.val + (w 2).val - 1, by omega⟩
      (by show r.val + (w 1).val = r.val + (w 1).val - 1 + 1; omega)
      (by show c.val + (w 2).val = c.val + (w 2).val - 1 + 1; omega)]
    unfold imageOf
    refine congrArg X (funext fun a => ?_)
    match a with
    | ⟨0, _⟩ => exact Fin.ext (by show b.val * 1 + (w 0).val - 0 = b.val; omega)
    | ⟨1, _⟩ => exact Fin.ext (by show r.val * 1 + (w 1).val - 1 = r.val + (w 1).val - 1; omega)
    | ⟨2, _⟩ => exact Fin.ext (by show c.val * 1 + (w 2).val - 1 = c.val + (w 2).val - 1; omega)
  · symm
    apply padAt_out
    by_contra hcon
    apply H
    intro a
    match a with
    | ⟨0, _⟩ => exact ⟨Nat.zero_le _, by show b.val * 1 + (w 0).val - 0 < 32; omega⟩
    | ⟨1, _⟩ => exact ⟨by show 1 ≤ r.val * 1 + (w 1).val; omega, by show r.val * 1 + (w 1).val - 1 < 1024; omega⟩
    | ⟨2, _⟩ => exact ⟨by show 1 ≤ c.val * 1 + (w 2).val; omega, by show c.val * 1 + (w 2).val - 1 < 1024; omega⟩

/-- The window position in row `k`, column `l`. -/
def winAt (k l : ℕ) (hk : k < 3) (hl : l < 3) : Win.Idx := fun a =>
  match a with
  | ⟨0, _⟩ => ⟨0, Nat.one_pos⟩
  | ⟨1, _⟩ => ⟨k, hk⟩
  | ⟨2, _⟩ => ⟨l, hl⟩

/-- The windowed maximum from −∞ of a stack of images (window 1×3×3, stride one, one cell of padding on each side of the
    image axes), at image `b`, row `r`, column `c`, is the 3×3 maximum of image `b` padded by −∞. -/
theorem reduceWindow_apply (X : FVec Ideal Stack .f32) {u : Shape} (init : FVec Ideal u .f32)
    (h : Stack.ReduceWindows (![1, 3, 3] : Fin 3 → Nat) ![1, 1, 1] ![0, 1, 1] ![0, 1, 1] Stack) (hu : 0 < u.numel)
    (hinit : init (Shape.Idx.first hu) = (⊥ : EReal)) (b : Fin 32) (r c : Fin 1024) :
    Host.reduceWindow (FloatOps.maximumf (F := Ideal) (φ := .f32)) ![1, 3, 3] ![1, 1, 1] ![0, 1, 1] ![0, 1, 1] X init h hu
        (ix3 b r c) = pool (imageOf X b) r.val c.val := by
  apply eq_of_forall_ge_iff
  intro z
  unfold Host.reduceWindow
  dsimp only
  rw [hinit]
  refine (foldl_max_le_iff (FloatOps.maximumf (F := Ideal) (φ := .f32)) (fun _ _ => rfl) _ _ _ _).trans ?_
  rw [pool_le_iff]
  simp only [bot_le, true_and, List.mem_finRange, forall_true_left]
  constructor
  · intro H k l hk hl
    have e2 : cell X b r c h.1.symm (Win.rowMajor.symm (Win.rowMajor (winAt k l hk hl))) ≤ z :=
      H (Win.rowMajor (winAt k l hk hl))
    rw [Equiv.symm_apply_apply, cell_eq] at e2
    exact e2
  · intro H n
    have e := H _ _ (Win.rowMajor.symm n 1).isLt (Win.rowMajor.symm n 2).isLt
    rw [← cell_eq X b r c h.1.symm (Win.rowMajor.symm n)] at e
    exact e

end Cert.Peaks

end
-- ==== Proof.Ref.lean ====
/-
  The reference, stage by stage: its two results are the peak map and the confidence map of the stack it is given.

  The reference reshapes its argument to a stack of 32 images `X`, takes the windowed maximum of `X` from −∞ (window 1×3×3,
  one cell of −∞ padding around each image), compares it with `X` for equality, compares `X` with the threshold, takes the
  conjunction, and selects `X` or zero by it. The windowed maximum at an index is `pool` of the index's image
  (`reduceWindow_apply`); every other stage reads one entry of each operand.
-/
import proofs.«153056_j31808527794318_2_alg».proof.Proof.Window
import proofs.«153056_j31808527794318_2_alg».proof.Proof.Gen.ReferenceIdeal.Read

noncomputable section

namespace Cert.Peaks.Ref

open Cert.ReferenceIdeal Cert.ReferenceIdeal.Gen Cert.ReferenceIdeal.Read
open Idealize.ShloMosaic Idealize.ShloMosaic.ValueIdx Cert.Peaks

variable (x0 : (⟨S32x1x1024x1024, .f32⟩ : BufTy).Contents (Elt Ideal))

/-- The reference's windowed maximum at image `b`, row `r`, column `c`. -/
theorem pooled_apply (b : Fin 32) (r c : Fin 1024) :
    val_main_v2 (F := Ideal) x0 (ix3 b r c) = pool (imageOf (val_main_v0 (F := Ideal) x0) b) r.val c.val := by
  unfold val_main_v2
  exact reduceWindow_apply (val_main_v0 (F := Ideal) x0) (val_main_v1 (F := Ideal)) _ _
    (by rw [val_main_v1_apply, val_main_cst_apply]; exact neg_inf) b r c

/-- The reference's first result is the peak map of the reshaped argument. -/
theorem peak_eq : val_main_v6 (F := Ideal) x0 = peakAt (val_main_v0 (F := Ideal) x0) := by
  funext i
  obtain ⟨b, r, c, rfl⟩ : ∃ (b : Fin 32) (r c : Fin 1024), i = ix3 b r c := ⟨i 0, i 1, i 2, eq_ix3 i⟩
  rw [val_main_v6_apply, val_main_v3_apply, val_main_v5_apply, pooled_apply, val_main_v4_apply, val_main_cst_0_apply]
  rfl

/-- The reference's second result is the confidence map of the reshaped argument. -/
theorem conf_eq : val_main_v8 (F := Ideal) x0 = confAt (val_main_v0 (F := Ideal) x0) := by
  funext i
  obtain ⟨b, r, c, rfl⟩ : ∃ (b : Fin 32) (r c : Fin 1024), i = ix3 b r c := ⟨i 0, i 1, i 2, eq_ix3 i⟩
  rw [val_main_v8_apply, peak_eq, val_main_v7_apply, val_main_cst_1_apply]
  rfl

end Cert.Peaks.Ref

end
-- ==== Proof.lean ====
/-
  Peak detection on a stack of 32 heat maps of 1024×1024 entries: the kernel against its reference, on the extended reals.

  Both programs mark an entry a peak when it equals the maximum of its 3×3 neighbourhood — the image continued by −∞
  beyond its edges — and exceeds a threshold (one single-precision word, the same in both), and return the peak map
  together with the confidence map: the image at its peaks, zero elsewhere.

  The kernel computes the neighbourhood maximum separably, one image per grid point: along the columns each entry is
  replaced by the maximum of itself and its two neighbours in the row (rotations by one place either way, the wrapped entry
  masked to −∞), then the same along the rows. The reference takes one windowed maximum from −∞ over a 1×3×3 window with one
  cell of −∞ padding around each image, which folds the nine padded entries in row-major order. The two agree because
  `max` on the extended reals is associative with −∞ its identity: a left fold of `max` from −∞ and the nested maxima are
  both the least upper bound of the same nine padded reads (Proof/Pool.lean, Proof/Window.lean, Proof/Body.lean). No entry
  needs to be finite for this, so the precondition is never opened.

  The kernel writes the peak map out as 32-bit words (zero or one) and the host compares them with zero afterwards, which
  gives back the bits (Proof/Run.lean); its two output arrays are assembled from the 32 blocks in Proof/Blocks.lean. The
  reference's stages are read one by one in Proof/Ref.lean. The ideal pass rewrote nothing, so the kernel's idealization
  is its own text read on the extended reals and that conjunct is trivial. The three frames are the generated frame runs
  (the reference's its generated run with the results dropped).
-/
import proofs.«153056_j31808527794318_2_alg».proof.Defs
import proofs.«153056_j31808527794318_2_alg».proof.Proof.Gen.Kernel
import proofs.«153056_j31808527794318_2_alg».proof.Proof.Gen.Kernel.Skeleton
import proofs.«153056_j31808527794318_2_alg».proof.Proof.Gen.Kernel.Launch
import proofs.«153056_j31808527794318_2_alg».proof.Proof.Gen.Kernel.Points
import proofs.«153056_j31808527794318_2_alg».proof.Proof.Gen.Kernel.Frame
import proofs.«153056_j31808527794318_2_alg».proof.Proof.Gen.KernelIdeal
import proofs.«153056_j31808527794318_2_alg».proof.Proof.Gen.KernelIdeal.Skeleton
import proofs.«153056_j31808527794318_2_alg».proof.Proof.Gen.KernelIdeal.Launch
import proofs.«153056_j31808527794318_2_alg».proof.Proof.Gen.KernelIdeal.Points
import proofs.«153056_j31808527794318_2_alg».proof.Proof.Gen.KernelIdeal.Frame
import proofs.«153056_j31808527794318_2_alg».proof.Proof.Gen.ReferenceIdeal
import proofs.«153056_j31808527794318_2_alg».proof.Proof.Gen.Pre_finite_inputs
import proofs.«153056_j31808527794318_2_alg».proof.Proof.Gen.ReferenceIdeal.Run
import proofs.«153056_j31808527794318_2_alg».proof.Proof.Gen.ReferenceIdeal.Read
import proofs.«153056_j31808527794318_2_alg».proof.Proof.Run
import proofs.«153056_j31808527794318_2_alg».proof.Proof.Ref
import Idealize.ShloMosaic.Adequacy
import Idealize.ShloMosaic.Init

noncomputable section

namespace Cert.Proof

open Idealize.ShloMosaic Idealize.SL.Sem

/-- The kernel program runs and leaves its argument as it was. -/
theorem frame_kernel : Cert.frame_Kernel (hKernel := Cert.Kernel.Gen.facts) (hPre_finite_inputs := Cert.Pre_finite_inputs.Gen.facts) :=
  fun m ρ _ => Cert.Kernel.Gen.frame m ρ

/-- So does its reading on the extended reals. -/
theorem frame_kernelIdeal :
    Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its argument as it was: its run with the two results dropped. -/
theorem frame_reference :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- On the extended reals, from memories agreeing on the argument, both programs end with the peak map and the confidence
    map of the argument reshaped to a stack of images. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' _ hagree
  refine ⟨fun c => Cert.Peaks.peakAt (Cert.Peaks.Kernel.stack m c), fun c => Cert.Peaks.confAt (Cert.Peaks.Kernel.stack m c),
    Cert.Peaks.Kernel.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v6_eq, Cert.Peaks.Ref.peak_eq]
    show _ = Cert.Peaks.peakAt (Cert.Peaks.Kernel.stack m c)
    rw [Cert.Peaks.Kernel.stack_eq, hagree c]
    rfl
  · rw [Cert.ReferenceIdeal.Read.val_main_v8_eq, Cert.Peaks.Ref.conf_eq]
    show _ = Cert.Peaks.confAt (Cert.Peaks.Kernel.stack m c)
    rw [Cert.Peaks.Kernel.stack_eq, hagree c]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
